-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S16x2 : S_.BroadcastsInDim S16x2 (![] : Fin 0 → Fin S16x2.rank)
  reducesTo_S16x2_S_d0_1 : S16x2.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : IVec S2048x2048 32) (main_arg2 : IVec S2048x2048 32) (main_arg3 : FVec F S256x2 .f32) (main_arg4 : FVec F S16x2 .f32) (main_arg5 : FVec F S4096 .f32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S256x2 .f32 := Host.absf main_arg3
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S16x2 .f32 := Host.absf main_arg4
  let main_cst_2 : FVec F S_ .f32 := constant S_ .f32 0x7F800000#32
  let main_v10 : FVec F S16x2 .f32 := broadcastInDim S16x2 ![] bcast_S_S16x2 main_cst_2
  let main_v11 : IVec S16x2 1 := cmpf .olt main_v9 main_v10
  let main_c_3 : IVec S_ 1 := constantI S_ 1 1#1
  let main_v12 : IVec S_ 1 := (fun x v => Host.reduce IntOp.andi x v reducesTo_S16x2_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_v13 main_v16
-- ==== Kernel.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩
abbrev S2048x2048x1 : Shape := ⟨3, ![2048, 2048, 1]⟩
abbrev S2048x2048x2 : Shape := ⟨3, ![2048, 2048, 2]⟩
abbrev S2048x4096 : Shape := ⟨2, ![2048, 4096]⟩
abbrev S4096x4096 : Shape := ⟨2, ![4096, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 35
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S2048x2048, .i32⟩
  | .hbm, ⟨2, _⟩ => ⟨S2048x2048, .i32⟩
  | .hbm, ⟨3, _⟩ => ⟨S256x2, .f32⟩
  | .hbm, ⟨4, _⟩ => ⟨S16x2, .f32⟩
  | .hbm, ⟨5, _⟩ => ⟨S4096, .f32⟩
  | .hbm, ⟨6, _⟩ => ⟨S4096, .f32⟩
  | .hbm, ⟨7, _⟩ => ⟨S_, .i32⟩
  | .hbm, ⟨8, _⟩ => ⟨S2048x2048, .i32⟩
  | .hbm, ⟨9, _⟩ => ⟨S2048x2048, .i1⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048x1, .i32⟩
  | .hbm, ⟨15, _⟩ => ⟨S2048x2048x2, .f32⟩
  | .hbm, ⟨16, _⟩ => ⟨S2048x4096, .f32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048x1, .i32⟩
  | .hbm, ⟨25, _⟩ => ⟨S2048x2048x2, .f32⟩
  | .hbm, ⟨26, _⟩ => ⟨S2048x4096, .f32⟩
  | .hbm, ⟨27, _⟩ => ⟨S4096x4096, .f32⟩
  | .hbm, ⟨28, _⟩ => ⟨S4096x4096, .bf16⟩
  | .hbm, ⟨29, _⟩ => ⟨S4096x4096, .f32⟩
  | .hbm, ⟨30, _⟩ => ⟨S4096x4096, .bf16⟩
  | .hbm, ⟨31, _⟩ => ⟨S1x4096, .f32⟩
  | .hbm, ⟨32, _⟩ => ⟨S1x4096, .f32⟩
  | .hbm, ⟨33, _⟩ => ⟨S4096x4096, .f32⟩
  | .hbm, ⟨34, _⟩ => ⟨S2x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_1 : Ref sig .tc := ⟨.hbm, 17, rfl⟩
abbrev main_call0_v8 : Ref sig .tc := ⟨.hbm, 18, rfl⟩
abbrev main_call0_v9 : Ref sig .tc := ⟨.hbm, 19, rfl⟩
abbrev main_call0_c_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  shapeCasts_S2048x2048x2_S2048x4096 : S2048x2048x2.ShapeCasts S2048x4096
  concatenates_S2048x4096_S2048x4096_S4096x4096_d0 : Shape.Concatenates [S2048x4096, S2048x4096] S4096x4096 0
  bitsLt_bf16_f32 : FTy.bits .bf16 < FTy.bits .f32
  shapeCasts_S2x2048x4096_S4096x4096 : S2x2048x4096.ShapeCasts S4096x4096
  shapeCasts_S4096_S1x4096 : S4096.ShapeCasts S1x4096
  shapeCasts_S4096x4096_S2x2048x4096 : S4096x4096.ShapeCasts S2x2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S256x2_S2048x2048x1_S2048x2048x2_2_0_n_n_0_2_12_wf : GatherDims.WF S256x2 S2048x2048x1 S2048x2048x2 [2] [0] [] [0] [] 2 ![1, 2]
  gather_S16x2_S2048x2048x1_S2048x2048x2_2_0_n_n_0_2_12_wf : GatherDims.WF S16x2 S2048x2048x1 S2048x2048x2 [2] [0] [] [0] [] 2 ![1, 2]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def gather_S256x2_S2048x2048x1_S2048x2048x2_2_0_n_n_0_2_12 : GatherDims S256x2 S2048x2048x1 S2048x2048x2 where
  offsetDims := [2]
  collapsedSliceDims := [0]
  operandBatchingDims := []
  startIndicesBatchingDims := []
  startIndexMap := [0]
  indexVectorDim := 2
  sliceSizes := ![1, 2]
  wf := gather_S256x2_S2048x2048x1_S2048x2048x2_2_0_n_n_0_2_12_wf
def gather_S16x2_S2048x2048x1_S2048x2048x2_2_0_n_n_0_2_12 : GatherDims S16x2 S2048x2048x1 S2048x2048x2 where
  offsetDims := [2]
  collapsedSliceDims := [0]
  operandBatchingDims := []
  startIndicesBatchingDims := []
  startIndexMap := [0]
  indexVectorDim := 2
  sliceSizes := ![1, 2]
  wf := gather_S16x2_S2048x2048x1_S2048x2048x2_2_0_n_n_0_2_12_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_call0_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S2048x2048 : Shape := ⟨2, ![2048, 2048]⟩
abbrev S256x2 : Shape := ⟨2, ![256, 2]⟩
abbrev S16x2 : Shape := ⟨2, ![16, 2]⟩
abbrev S4096 : Shape := ⟨1, ![4096]⟩
abbrev S_ : Shape := ⟨0, ![]⟩
abbrev S2048x2048x1 : Shape := ⟨3, ![2048, 2048, 1]⟩
abbrev S2048x2048x2 : Shape := ⟨3, ![2048, 2048, 2]⟩
abbrev S2048x4096 : Shape := ⟨2, ![2048, 4096]⟩
abbrev S4096x4096 : Shape := ⟨2, ![4096, 4096]⟩
abbrev S4096x1 : Shape := ⟨2, ![4096, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2048x2048, .i32⟩
  | .hbm, ⟨2, _⟩ => ⟨S2048x2048, .i32⟩
  | .hbm, ⟨3, _⟩ => ⟨S256x2, .f32⟩
  | .hbm, ⟨4, _⟩ => ⟨S16x2, .f32⟩
  | .hbm, ⟨5, _⟩ => ⟨S4096, .f32⟩
  | .hbm, ⟨6, _⟩ => ⟨S4096, .f32⟩
  | .hbm, ⟨7, _⟩ => ⟨S_, .i32⟩
  | .hbm, ⟨8, _⟩ => ⟨S2048x2048, .i32⟩
  | .hbm, ⟨9, _⟩ => ⟨S2048x2048, .i1⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048x1, .i32⟩
  | .hbm, ⟨15, _⟩ => ⟨S2048x2048x2, .f32⟩
  | .hbm, ⟨16, _⟩ => ⟨S2048x4096, .f32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048x1, .i32⟩
  | .hbm, ⟨25, _⟩ => ⟨S2048x2048x2, .f32⟩
  | .hbm, ⟨26, _⟩ => ⟨S2048x4096, .f32⟩
  | .hbm, ⟨27, _⟩ => ⟨S4096x4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S2x2048x4096, .f32⟩
  | .hbm, ⟨32, _⟩ => ⟨S1x1x4096, .f32⟩
  | .hbm, ⟨33, _⟩ => ⟨S2x2048x4096, .f32⟩
  | .hbm, ⟨34, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  shapeCasts_S2048x2048x2_S2048x4096 : S2048x2048x2.ShapeCasts S2048x4096
  concatenates_S2048x4096_S2048x4096_S4096x4096_d0 : Shape.Concatenates [S2048x4096, S2048x4096] S4096x4096 0
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  gather_S256x2_S2048x2048x1_S2048x2048x2_2_0_n_n_0_2_12_wf : GatherDims.WF S256x2 S2048x2048x1 S2048x2048x2 [2] [0] [] [0] [] 2 ![1, 2]
  gather_S16x2_S2048x2048x1_S2048x2048x2_2_0_n_n_0_2_12_wf : GatherDims.WF S16x2 S2048x2048x1 S2048x2048x2 [2] [0] [] [0] [] 2 ![1, 2]
  dot_S2x2048x4096_S4096x4096_S2x2048x4096_2_1_01_0_n_n_wf : DotDims.WF S2x2048x4096 S4096x4096 S2x2048x4096 [2] [1] [0, 1] [0] [] []

variable [Facts₀]

def gather_S256x2_S2048x2048x1_S2048x2048x2_2_0_n_n_0_2_12 : GatherDims S256x2 S2048x2048x1 S2048x2048x2 where
  offsetDims := [2]
  collapsedSliceDims := [0]
  operandBatchingDims := []
  startIndicesBatchingDims := []
  startIndexMap := [0]
  indexVectorDim := 2
  sliceSizes := ![1, 2]
  wf := gather_S256x2_S2048x2048x1_S2048x2048x2_2_0_n_n_0_2_12_wf
def gather_S16x2_S2048x2048x1_S2048x2048x2_2_0_n_n_0_2_12 : GatherDims S16x2 S2048x2048x1 S2048x2048x2 where
  offsetDims := [2]
  collapsedSliceDims := [0]
  operandBatchingDims := []
  startIndicesBatchingDims := []
  startIndexMap := [0]
  indexVectorDim := 2
  sliceSizes := ![1, 2]
  wf := gather_S16x2_S2048x2048x1_S2048x2048x2_2_0_n_n_0_2_12_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.LibFinite.lean ====
/-
  Real-valued extended reals, and the operations that keep them real.

  An extended real is REAL when it is neither of the two infinities. Sums, differences,
  products, maxima and finite sums of real numbers are real; so is a quotient by a real
  number other than zero, a real power of a real base, and the reciprocal square root of a
  positive real. An array operation that only moves entries (a gather, a slice, a transpose, a
  reshape, a broadcast, a concatenation) yields entries of its operands, so it keeps an
  all-real array all-real; an accumulating scatter, a sum along an axis and a matrix product
  add and multiply finitely many entries, so they do too. The float words whose exponent field
  is not all ones denote real numbers.
-/
import Idealize.ShloMosaic.PureOps.Ideal
import Idealize.ShloMosaic.PureOps.Ideal.Laws
import Idealize.ShloMosaic.Lib.ValueIdx
import Idealize.ShloMosaic.Lib.IdealHost

open scoped BigOperators

namespace Cert.Math

open Idealize.ShloMosaic

/-- An extended real that is a real number. -/
def IsReal (x : EReal) : Prop := ∃ r : ℝ, x = r

/-- A family of extended reals all of whose entries are real numbers. -/
def AllReal {ι : Sort*} (v : ι → EReal) : Prop := ∀ i, IsReal (v i)

theorem isReal_coe (r : ℝ) : IsReal (r : EReal) := ⟨r, rfl⟩
theorem isReal_zero : IsReal 0 := ⟨0, rfl⟩
theorem isReal_one : IsReal 1 := ⟨1, rfl⟩

/-- Real means: neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of real numbers is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The quotient of a real number by a real number other than zero is real. -/
theorem IsReal.div_coe {x : EReal} (hx : IsReal x) {c : ℝ} (hc : c ≠ 0) : IsReal (Ideal.div x (c : EReal)) := by
  rw [Ideal.div_coe hc]; exact hx.mul (isReal_coe _)

/-- A real power of a real base is real (Mathlib's `Real.rpow`, total). -/
theorem isReal_pow_coe (x y : ℝ) : IsReal (Ideal.pow (x : EReal) (y : EReal)) := ⟨Real.rpow x y, rfl⟩
theorem IsReal.pow {x y : EReal} (hx : IsReal x) (hy : IsReal y) : IsReal (Ideal.pow x y) := by
  obtain ⟨a, rfl⟩ := hx; obtain ⟨b, rfl⟩ := hy; exact isReal_pow_coe a b

/-- A real power of a positive base is a positive real. -/
theorem pow_coe_pos {x : ℝ} (hx : 0 < x) (y : ℝ) : ∃ r : ℝ, 0 < r ∧ Ideal.pow (x : EReal) (y : EReal) = r :=
  ⟨Real.rpow x y, Real.rpow_pos_of_pos hx y, rfl⟩

/-- The reciprocal square root of a positive real is a positive real. -/
theorem rsqrt_coe_pos {x : ℝ} (hx : 0 < x) : ∃ r : ℝ, 0 < r ∧ Ideal.rsqrt (x : EReal) = r := by
  refine ⟨(Real.sqrt x)⁻¹, inv_pos.mpr (Real.sqrt_pos.mpr hx), ?_⟩
  show (if x < 0 then (⊥ : EReal) else if x = 0 then ⊤ else ((Real.sqrt x)⁻¹ : ℝ)) = _
  rw [if_neg (not_lt.mpr hx.le), if_neg hx.ne']
theorem isReal_rsqrt_of_pos {x : EReal} (hx : IsReal x) (hpos : 0 < x) : IsReal (Ideal.rsqrt x) := by
  obtain ⟨a, rfl⟩ := hx
  obtain ⟨r, _, hr⟩ := rsqrt_coe_pos (EReal.coe_pos.mp hpos)
  exact ⟨r, hr⟩

/-- A real base at least one raised to a real power is a positive real. -/
theorem pow_pos_of_one_le {x y : EReal} (hx : IsReal x) (h1 : 1 ≤ x) (hy : IsReal y) :
    ∃ r : ℝ, 0 < r ∧ Ideal.pow x y = r := by
  obtain ⟨a, rfl⟩ := hx; obtain ⟨b, rfl⟩ := hy
  have ha : (1 : ℝ) ≤ a := by exact_mod_cast h1
  exact pow_coe_pos (lt_of_lt_of_le one_pos ha) b

/-! ## Float words that denote real numbers -/

/-- A float word whose exponent field is not all ones (neither an infinity nor a NaN pattern)
    denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- At 32 bits: exponent field not 255. -/
theorem isReal_ofBits_f32 (b : BitVec 32) (h : (b.extractLsb' 23 8).toNat ≠ 255) : IsReal (Ideal.ofBits .f32 b) :=
  isReal_ieee 8 23 b h

/-- The word `0xBF800000` is minus one. -/
theorem ofBits_neg_one_f32 : Ideal.ofBits .f32 0xBF800000#32 = ((-1 : ℝ) : EReal) := by
  simp [Ideal.ofBits, Ideal.ieee, -EReal.coe_mul, -EReal.coe_neg]; norm_num
/-- The word `0xC0000000` is minus two. -/
theorem ofBits_neg_two_f32 : Ideal.ofBits .f32 0xC0000000#32 = ((-2 : ℝ) : EReal) := by
  simp [Ideal.ofBits, Ideal.ieee, -EReal.coe_mul, -EReal.coe_neg]; norm_num
/-- The word `0xBF000000` is minus one half. -/
theorem ofBits_neg_half_f32 : Ideal.ofBits .f32 0xBF000000#32 = ((-(1 / 2) : ℝ) : EReal) := by
  simp [Ideal.ofBits, Ideal.ieee, -EReal.coe_mul, -EReal.coe_neg]; norm_num
/-- The word `0x47435000` is fifty thousand. -/
theorem ofBits_50000_f32 : Ideal.ofBits .f32 0x47435000#32 = ((50000 : ℝ) : EReal) := by
  simp [Ideal.ofBits, Ideal.ieee, -EReal.coe_mul, -EReal.coe_neg]; norm_num
/-- The word `0x3727C5AC` (the float nearest 10⁻⁵) is a positive real: 10995116 · 2⁻⁴⁰. -/
theorem ofBits_eps_f32 : Ideal.ofBits .f32 0x3727C5AC#32 = (((10995116 : ℝ) * (2 : ℝ) ^ (-40 : ℤ) : ℝ) : EReal) := by
  simp [Ideal.ofBits, Ideal.ieee, -EReal.coe_mul, -EReal.coe_neg]
theorem ofBits_eps_f32_pos : ∃ r : ℝ, 0 < r ∧ Ideal.ofBits .f32 0x3727C5AC#32 = r :=
  ⟨_, by positivity, ofBits_eps_f32⟩

theorem isReal_ofBits_zero_f32 : IsReal (Ideal.ofBits .f32 0x00000000#32) := by
  rw [Ideal.ofBits_zero_f32]; exact isReal_zero
theorem isReal_ofBits_one_f32 : IsReal (Ideal.ofBits .f32 0x3F800000#32) := by
  rw [Ideal.ofBits_one_f32]; exact isReal_one
theorem isReal_ofBits_neg_one_f32 : IsReal (Ideal.ofBits .f32 0xBF800000#32) := ⟨_, ofBits_neg_one_f32⟩
theorem isReal_ofBits_neg_two_f32 : IsReal (Ideal.ofBits .f32 0xC0000000#32) := ⟨_, ofBits_neg_two_f32⟩
theorem isReal_ofBits_neg_half_f32 : IsReal (Ideal.ofBits .f32 0xBF000000#32) := ⟨_, ofBits_neg_half_f32⟩
theorem isReal_ofBits_50000_f32 : IsReal (Ideal.ofBits .f32 0x47435000#32) := ⟨_, ofBits_50000_f32⟩
theorem isReal_ofBits_eps_f32 : IsReal (Ideal.ofBits .f32 0x3727C5AC#32) := ⟨_, ofBits_eps_f32⟩

/-! ## Arrays: the operations of the data path keep an all-real array all-real -/

section Arrays
variable {s : Shape} {φ : FTy}

theorem allReal_mulf {a b : FVec Ideal s φ} (ha : AllReal a) (hb : AllReal b) : AllReal (mulf a b) :=
  fun i => (ha i).mul (hb i)
theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_maximumf {a b : FVec Ideal s φ} (ha : AllReal a) (hb : AllReal b) : AllReal (maximumf a b) :=
  fun i => (ha i).max (hb i)
/-- A format change is the identity on extended reals. -/
theorem allReal_truncf {ψ : FTy} {a : FVec Ideal s φ} (h : ψ.bits < φ.bits) (ha : AllReal a) :
    AllReal (truncf ψ a h : FVec Ideal s ψ) := fun i => ha i
theorem allReal_extf {ψ : FTy} {a : FVec Ideal s φ} (h : φ.bits < ψ.bits) (ha : AllReal a) :
    AllReal (extf ψ a h : FVec Ideal s ψ) := fun i => ha i
/-- A splat of a word that denotes a real number. -/
theorem allReal_constant (b : BitVec φ.bits) (h : IsReal (Ideal.ofBits φ b)) :
    AllReal (constant (F := Ideal) s φ b) := fun _ => h
theorem allReal_broadcast {x : EReal} (h : IsReal x) : AllReal (broadcast s x) := fun _ => h
/-- A signed integer read as a float is that integer, a real number. -/
theorem allReal_sitofp {w : Nat} (x : IVec s w) : AllReal (sitofp φ x : FVec Ideal s φ) :=
  fun i => ⟨((x i).toInt : ℝ), rfl⟩
/-- A select takes each entry from one of its two operands. -/
theorem allReal_select (c : IVec s 1) {a b : s.Idx → EReal} (ha : AllReal a) (hb : AllReal b) :
    AllReal (select c a b) := fun i => by
  show IsReal (if c i = 1 then a i else b i)
  split_ifs
  · exact ha i
  · exact hb i

/-- The host's quotient by an array of real numbers other than zero. -/
theorem allReal_hostDivf {a b : FVec Ideal s φ} (ha : AllReal a) (hb : ∀ i, ∃ c : ℝ, c ≠ 0 ∧ b i = c) :
    AllReal (Host.divf a b) := fun i => by
  obtain ⟨c, hc, hbc⟩ := hb i
  show IsReal (Ideal.div (a i) (b i))
  rw [hbc]; exact (ha i).div_coe hc
/-- The host's power of real bases to real exponents. -/
theorem allReal_hostPowf {a b : FVec Ideal s φ} (ha : AllReal a) (hb : AllReal b) : AllReal (Host.powf a b) :=
  fun i => (ha i).pow (hb i)
/-- The host's reciprocal square root of positive reals. -/
theorem allReal_hostRsqrt {a : FVec Ideal s φ} (ha : AllReal a) (hpos : ∀ i, 0 < a i) : AllReal (Host.rsqrt a) :=
  fun i => isReal_rsqrt_of_pos (ha i) (hpos i)

end Arrays

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allReal_shapeCast {x : s.Idx → EReal} (h : s.ShapeCasts t) (hx : AllReal x) : AllReal (shapeCast t x h) :=
  fun _ => hx _
theorem allReal_extractStridedSlice (off : Fin s.rank → Nat) {x : s.Idx → EReal} (h : s.Slices off t) (hx : AllReal x) :
    AllReal (extractStridedSlice t off x h) := fun _ => hx _
theorem allReal_transpose (perm : List (Fin s.rank)) {x : s.Idx → EReal} (h : s.Transposes perm t) (hx : AllReal x) :
    AllReal (transpose t perm x h) := fun _ => hx _
/-- A gather reads entries of its operand, whatever the start indices. -/
theorem allReal_gather {si : Shape} {w : Nat} (d : GatherDims s si t) {x : s.Idx → EReal} (idx : IVec si w)
    (hx : AllReal x) : AllReal (Host.gather d x idx) := fun _ => hx _
/-- A concatenation reads entries of its pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

end Layout

section Sums
variable {φ : FTy}

/-- An accumulating scatter adds to each operand entry finitely many update entries. -/
theorem allReal_scatterAdd {s si u : Shape} {w : Nat} (d : ScatterDims s si u) {x : FVec Ideal s φ} (idx : IVec si w)
    {upd : FVec Ideal u φ} (hx : AllReal x) (hu : AllReal upd) : AllReal (Host.scatterAdd d x idx upd) :=
  fun i => (hx i).add (isReal_sum _ _ fun j _ => hu j)
/-- The host's sum along axes adds to the initial value finitely many entries. -/
theorem allReal_hostReduceAdd {s t u : Shape} {axes : List (Fin s.rank)} {x : FVec Ideal s φ} {init : u.Idx → Ideal φ}
    (h : s.ReducesTo axes t) (hu : 0 < u.numel) (hx : AllReal x) (hi : AllReal init) :
    AllReal (Host.reduceAdd x init h hu) :=
  fun _ => (hi _).add (isReal_sum _ _ fun i _ => hx i)
/-- A matrix product onto an accumulator: finitely many products added to an entry. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (matmul d prec lhs rhs acc) :=
  fun j => (ha j).add (isReal_sum _ _ fun _ _ => (hl _).mul (hr _))
/-- The host's matrix product: the same onto zero. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun _ => isReal_zero.add (isReal_sum _ _ fun _ _ => (hl _).mul (hr _))

end Sums

end Cert.Math
-- ==== Proof.Finite.lean ====
/-
  The precondition, read: every entry of every float input is a real number.

  The printed precondition is the conjunction, over the five float inputs, of "all entries satisfy |x| < +inf".
  Over the extended reals |x| = max x (-x), and max x (-x) < +inf holds exactly when x is neither infinity.
-/
import proofs.«126006_j46188078301681_2_alg».proof.Pre_finite_inputs
import proofs.«126006_j46188078301681_2_alg».proof.Proof.Gen.Pre_finite_inputs
import proofs.«126006_j46188078301681_2_alg».proof.Proof.LibFinite
import Idealize.ShloMosaic.Lib.ReduceAll
import Idealize.ShloMosaic.Lib.ValueIdx

noncomputable section

open Idealize.ShloMosaic

namespace Cert.Finite

open Cert.Math

/-- The scalar shape has one index. -/
instance : Subsingleton (⟨0, ![]⟩ : Shape).Idx := ⟨fun a b => funext fun d => d.elim0⟩

/-- The word 0x7F800000 is +inf. -/
theorem ofBits_inf : Ideal.ofBits .f32 0x7F800000#32 = ⊤ := by simp [Ideal.ofBits, Ideal.ieee]

/-- An extended real whose absolute value is below +inf is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One conjunct of the precondition: a reduction by "and" over all axes of the entrywise test |x| < +inf that
    comes out true makes every entry of x a real number. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ValueIdx.ix0 = 1#1) : AllReal x := fun i =>
  isReal_of_abs_lt_inf (x i) (Host.reduce_andi_all _ _ hr hu ValueIdx.ix0 e i)

/-- The precondition gives real entries for x, the two codebooks, the scales and the bias. -/
theorem inputs_real (x0 : FVec Ideal Cert.Pre_finite_inputs.S2x2048x4096 .f32)
    (x1 x2 : IVec Cert.Pre_finite_inputs.S2048x2048 32)
    (x3 : FVec Ideal Cert.Pre_finite_inputs.S256x2 .f32) (x4 : FVec Ideal Cert.Pre_finite_inputs.S16x2 .f32)
    (x5 x6 : FVec Ideal Cert.Pre_finite_inputs.S4096 .f32)
    (h : Cert.Pre_finite_inputs.fn (F := Ideal) x0 x1 x2 x3 x4 x5 x6 = fun _ => 1#1) :
    AllReal x0 ∧ AllReal x3 ∧ AllReal x4 ∧ AllReal x5 ∧ AllReal x6 := by
  have e := congrFun h ValueIdx.ix0
  dsimp only [Cert.Pre_finite_inputs.fn, Cert.Pre_finite_inputs.fn_part1] at e
  obtain ⟨e18, e22⟩ := IntOp.andi_eq_one.1 e
  obtain ⟨e13, e17⟩ := IntOp.andi_eq_one.1 e18
  obtain ⟨e8, e12⟩ := IntOp.andi_eq_one.1 e13
  obtain ⟨e3, e7⟩ := IntOp.andi_eq_one.1 e8
  exact ⟨allReal_of_all x0 _ _ _ e3, allReal_of_all x3 _ _ _ e7, allReal_of_all x4 _ _ _ e12,
    allReal_of_all x5 _ _ _ e17, allReal_of_all x6 _ _ _ e22⟩

end Cert.Finite

end
-- ==== Proof.Pieces.lean ====
/-
  What one grid point leaves behind, as pure terms of what it loads.

  The kernel keeps a 1024 x 1024 accumulator between the two contraction steps of an output tile.
  At the first step (contraction coordinate 0) it stores the zero block into the accumulator, reads it back, and
  stores  zero + A * Bᵀ  of the two 1024 x 2048 operand blocks. At the second step (contraction coordinate 1) it
  stores  acc + A * Bᵀ  into the accumulator, reads that back, and stores  acc' * scales + bias  into the
  output tile. Each of these is one covering store whose loads read whole buffers, so what the buffer holds
  afterwards is the store's payload, at every float instance.
-/
import proofs.«126006_j46188078301681_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem zero_offsets : (![0, 0] : Fin 2 → Nat) = fun _ => 0 := funext fun a => by fin_cases a <;> rfl

/-- First contraction step: the accumulator ends at the matmul payload over the zero block. -/
theorem acc_first (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S1024x2048 .bf16) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x2048) zero_offsets]

/-- Second contraction step: the accumulator ends at the matmul payload over what the first step left. -/
theorem acc_second (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S1024x2048 .bf16) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero zero_offsets]
  simp only [View.readAt_eq_ld, harg8.read_unread, harg3.read_unread, harg4.read_unread,
    View.ld_unit_zero (S := S1024x1024) zero_offsets, View.ld_unit_zero (S := S1024x2048) zero_offsets]

/-- Second contraction step: the output tile ends at the scale-and-bias payload over that accumulator. -/
theorem out_second (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S1024x2048 .bf16) (x2 : Vec F S1x1024 .f32) (x3 : Vec F S1x1024 .f32) (xs0 : Vec F S1024x1024 .f32) :
    out0_B_4 c i arg3 harg3 arg4 harg4 arg5 harg5 arg6 harg6 arg7 harg7 arg8 harg8 hc0 hc1 x0 x1 x2 x3 xs0 = k0_pay3 (k0_pay2 xs0 x0 x1) x2 x3 := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  rw [View.canon_unit_zero zero_offsets, View.readCov_unit_zero (S := S1024x1024) _ zero_offsets]
  simp only [View.readAt_eq_ld, harg8.read_unread, harg3.read_unread, harg4.read_unread, harg5.read_unread, harg6.read_unread,
    View.ld_unit_zero (S := S1024x1024) zero_offsets, View.ld_unit_zero (S := S1024x2048) zero_offsets,
    View.ld_unit_zero (S := S1x1024) zero_offsets]

end Cert.KernelIdeal.Pieces

end
-- ==== Proof.Payloads.lean ====
/-
  The three payloads of the kernel body, read at an index, over the extended reals.

  For a tile position (p, q), 0 ≤ p, q < 1024:
    the zero block reads 0;
    the accumulation step reads  acc (p, q) + Σ_{k < 2048} a (p, k) * b (q, k)  — the matrix product contracts the
      second axis of both 1024 x 2048 operand blocks;
    the final step reads  acc (p, q) * s (0, q) + t (0, q)  — the 1 x 1024 rows of scales and bias are broadcast down
      the 1024 rows of the tile.
-/
import proofs.«126006_j46188078301681_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Payloads

open Cert.KernelIdeal Cert.KernelIdeal.Gen

/-- The zero block reads 0 everywhere. -/
theorem zero_block_apply (j : S1024x1024.Idx) : k0_pay1 (F := Ideal) j = 0 := by
  unfold k0_pay1
  rw [shapeCast_self]
  exact Ideal.ofBits_zero_f32

/-- The left operand's row coordinate at an output index is the output's row coordinate. -/
theorem lhs_axis0 (i : S1024x1024.Idx) (κ : dot_S1024x2048_S1024x2048_S1024x1024_1_1_0_0_n_n.contr.Idx) :
    (dot_S1024x2048_S1024x2048_S1024x1024_1_1_0_0_n_n.lhsIdx i κ 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
/-- Its column coordinate is the contraction position. -/
theorem lhs_axis1 (i : S1024x1024.Idx) (κ : dot_S1024x2048_S1024x2048_S1024x1024_1_1_0_0_n_n.contr.Idx) :
    (dot_S1024x2048_S1024x2048_S1024x1024_1_1_0_0_n_n.lhsIdx i κ 1).val = (κ ⟨0, by decide⟩).val :=
  dot_S1024x2048_S1024x2048_S1024x1024_1_1_0_0_n_n.lhsIdx_val_of_single rfl i κ
/-- The right operand's row coordinate at an output index is the output's column coordinate. -/
theorem rhs_axis0 (i : S1024x1024.Idx) (κ : dot_S1024x2048_S1024x2048_S1024x1024_1_1_0_0_n_n.contr.Idx) :
    (dot_S1024x2048_S1024x2048_S1024x1024_1_1_0_0_n_n.rhsIdx i κ 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- Its column coordinate is the contraction position. -/
theorem rhs_axis1 (i : S1024x1024.Idx) (κ : dot_S1024x2048_S1024x2048_S1024x1024_1_1_0_0_n_n.contr.Idx) :
    (dot_S1024x2048_S1024x2048_S1024x1024_1_1_0_0_n_n.rhsIdx i κ 1).val = (κ ⟨0, by decide⟩).val :=
  dot_S1024x2048_S1024x2048_S1024x1024_1_1_0_0_n_n.rhsIdx_val_of_single rfl i κ

/-- The left operand index of the block product at output (p, q) and contraction position k is (p, k). -/
theorem lhs_index (p q : Fin 1024) (k : Fin 2048) :
    dot_S1024x2048_S1024x2048_S1024x1024_1_1_0_0_n_n.lhsIdx (ix2 p q) ((contrEquiv1 dot_S1024x2048_S1024x2048_S1024x1024_1_1_0_0_n_n 2048 rfl rfl).symm k) = ix2 p k := by
  have hk := contrEquiv1_symm_val dot_S1024x2048_S1024x2048_S1024x1024_1_1_0_0_n_n 2048 rfl rfl k
  funext a
  refine Fin.ext ?_
  match a with
  | ⟨0, _⟩ => exact lhs_axis0 _ _
  | ⟨1, _⟩ => exact (lhs_axis1 _ _).trans hk

/-- The right operand index there is (q, k). -/
theorem rhs_index (p q : Fin 1024) (k : Fin 2048) :
    dot_S1024x2048_S1024x2048_S1024x1024_1_1_0_0_n_n.rhsIdx (ix2 p q) ((contrEquiv1 dot_S1024x2048_S1024x2048_S1024x1024_1_1_0_0_n_n 2048 rfl rfl).symm k) = ix2 q k := by
  have hk := contrEquiv1_symm_val dot_S1024x2048_S1024x2048_S1024x1024_1_1_0_0_n_n 2048 rfl rfl k
  funext a
  refine Fin.ext ?_
  match a with
  | ⟨0, _⟩ => exact rhs_axis0 _ _
  | ⟨1, _⟩ => exact (rhs_axis1 _ _).trans hk

/-- The accumulation step at (p, q). -/
theorem accumulate_apply (acc : FVec Ideal S1024x1024 .f32) (a b : FVec Ideal S1024x2048 .bf16) (p q : Fin 1024) :
    k0_pay2 (F := Ideal) acc a b (ix2 p q) = acc (ix2 p q) + ∑ k : Fin 2048, a (ix2 p k) * b (ix2 q k) := by
  unfold k0_pay2
  simp only [shapeCast_self]
  rw [addf_apply]
  refine congrArg (acc (ix2 p q) + ·) ((Ideal.matmul_constant_zero_apply (φ₁ := .bf16) (φ₂ := .bf16) dot_S1024x2048_S1024x2048_S1024x1024_1_1_0_0_n_n none a b (ix2 p q)).trans ?_)
  rw [← Equiv.sum_comp (contrEquiv1 dot_S1024x2048_S1024x2048_S1024x1024_1_1_0_0_n_n 2048 rfl rfl).symm]
  refine Finset.sum_congr rfl fun k _ => ?_
  rw [lhs_index, rhs_index]

/-- A 1 x 1024 row broadcast down the tile reads, at (p, q), the row's entry q. -/
theorem row_broadcast_apply (r : FVec Ideal S1x1024 .f32) (p q : Fin 1024) :
    broadcastTo S1024x1024 r broadcasts_S1x1024_S1024x1024 (ix2 p q) = r (ix2 (0 : Fin 1) q) :=
  broadcastTo_apply r broadcasts_S1x1024_S1024x1024 (ix2 p q) (ix2 (0 : Fin 1) q) fun a => by
    match a with
    | ⟨0, _⟩ => show (0 : Nat) = if (1 : Nat) = 1 then 0 else p.val; rw [if_pos rfl]
    | ⟨1, _⟩ => show q.val = if (1024 : Nat) = 1 then 0 else q.val; rw [if_neg (by decide)]

/-- The final step at (p, q). -/
theorem scale_bias_apply (acc : FVec Ideal S1024x1024 .f32) (s t : FVec Ideal S1x1024 .f32) (p q : Fin 1024) :
    k0_pay3 (F := Ideal) acc s t (ix2 p q) = acc (ix2 p q) * s (ix2 (0 : Fin 1) q) + t (ix2 (0 : Fin 1) q) := by
  unfold k0_pay3
  simp only [shapeCast_self]
  rw [addf_apply, mulf_apply, row_broadcast_apply, row_broadcast_apply]

/-- The two contraction steps followed by the final step, at (p, q): with operand blocks (a₀, b₀) at the first step
    and (a₁, b₁) at the second, the output tile reads
    (Σ_k a₀ (p, k) * b₀ (q, k) + Σ_k a₁ (p, k) * b₁ (q, k)) * s (0, q) + t (0, q). -/
theorem tile_apply (a₀ b₀ a₁ b₁ : FVec Ideal S1024x2048 .bf16) (s t : FVec Ideal S1x1024 .f32) (p q : Fin 1024) :
    k0_pay3 (F := Ideal) (k0_pay2 (F := Ideal) (k0_pay2 (F := Ideal) (k0_pay1 (F := Ideal)) a₀ b₀) a₁ b₁) s t (ix2 p q)
      = ((∑ k : Fin 2048, a₀ (ix2 p k) * b₀ (ix2 q k)) + ∑ k : Fin 2048, a₁ (ix2 p k) * b₁ (ix2 q k))
          * s (ix2 (0 : Fin 1) q) + t (ix2 (0 : Fin 1) q) := by
  rw [scale_bias_apply, accumulate_apply, accumulate_apply, zero_block_apply, zero_add]

end Cert.KernelIdeal.Payloads

end
-- ==== Proof.SumLaw.lean ====
/-
  The one algebraic law that joins the two sides.

  For real numbers x k, w k (k in a finite index set that splits into a lower and an upper half) and a
  real number s,
      (Σ_lower x k * w k  +  Σ_upper x k * w k) * s  =  Σ_all x k * (w k * s).
  The left side is a contraction carried out half by half and scaled afterwards; the right side is one
  contraction against the scaled second factor. Over the extended reals the identity needs every entry to be
  a real number: multiplication does not distribute over a sum that meets both infinities.
-/
import proofs.«126006_j46188078301681_2_alg».proof.Proof.LibFinite

open scoped BigOperators

namespace Cert.SumLaw

open Cert.Math

/-- The coercion of the reals into the extended reals commutes with a finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The law, over any finite index type `ι` that two maps `lo hi : κ → ι` split into halves (`split`: a sum
    over `ι` is the sum over the lower half plus the sum over the upper half). -/
theorem scaled_halves {ι κ : Type*} [Fintype ι] [Fintype κ] (lo hi : κ → ι)
    (split : ∀ g : ι → ℝ, ∑ i, g i = ∑ k, g (lo k) + ∑ k, g (hi k))
    (x w : ι → EReal) (s : EReal) (hx : AllReal x) (hw : AllReal w) (hs : IsReal s) :
    ((∑ k, x (lo k) * w (lo k)) + ∑ k, x (hi k) * w (hi k)) * s = ∑ i, x i * (w i * s) := by
  choose xr hxr using hx
  choose wr hwr using hw
  obtain ⟨sr, rfl⟩ := hs
  obtain rfl : x = fun i => ((xr i : ℝ) : EReal) := funext hxr
  obtain rfl : w = fun i => ((wr i : ℝ) : EReal) := funext hwr
  simp only [← EReal.coe_mul]
  rw [coe_sum, coe_sum, coe_sum, ← EReal.coe_add, ← EReal.coe_mul, EReal.coe_eq_coe_iff,
    split fun i => xr i * (wr i * sr), add_mul, Finset.sum_mul, Finset.sum_mul]
  congr 1 <;> exact Finset.sum_congr rfl fun k _ => by ring

/-- The lower half of the 4096 contraction positions: position `k`. -/
abbrev kLo (k : Fin 2048) : Fin 4096 := ⟨k.val, by omega⟩
/-- The upper half: position `2048 + k`. -/
abbrev kHi (k : Fin 2048) : Fin 4096 := ⟨2048 + k.val, by omega⟩

/-- A sum over 4096 positions is the sum over the first 2048 plus the sum over the last 2048. -/
theorem split_4096 (g : Fin 4096 → ℝ) : ∑ i, g i = ∑ k, g (kLo k) + ∑ k, g (kHi k) :=
  Fin.sum_univ_add (M := ℝ) (a := 2048) (b := 2048) g

/-- The law at 4096 = 2048 + 2048. -/
theorem scaled_halves_4096 (x w : Fin 4096 → EReal) (s : EReal) (hx : AllReal x) (hw : AllReal w) (hs : IsReal s) :
    ((∑ k, x (kLo k) * w (kLo k)) + ∑ k, x (kHi k) * w (kHi k)) * s = ∑ i, x i * (w i * s) :=
  scaled_halves kLo kHi split_4096 x w s hx hw hs

end Cert.SumLaw
-- ==== Proof.Blocks.lean ====
/-
  From the grid points' tiles to the whole 4096 x 4096 product array.

  The grid is 4 x 4 x 2: output tile (i, j) of 1024 x 1024 entries is computed in two contraction steps k = 0, 1, and
  grid point t = (4 i + j) * 2 + k. At an odd point (k = 1) the tile is written back. With
    X  the 4096 x 4096 left operand (row r, contraction position κ),
    Wt the 4096 x 4096 right operand (row o, contraction position κ),
    Sc, Bi the 1 x 4096 rows of scales and bias,
  the entry (r, o) of the product array ends at
    (Σ_{κ < 2048} X (r, κ) * Wt (o, κ)  +  Σ_{2048 ≤ κ < 4096} X (r, κ) * Wt (o, κ)) * Sc (0, o) + Bi (0, o):
  the first sum is what the even point before left in the accumulator (over the zero block), the second what the
  odd point adds. Every block of an operand read through its window sits at block index x block size + the
  position inside the block, and the sixteen output tiles cover the array.
-/
import proofs.«126006_j46188078301681_2_alg».proof.Proof.Pieces
import proofs.«126006_j46188078301681_2_alg».proof.Proof.Payloads
import proofs.«126006_j46188078301681_2_alg».proof.Proof.SumLaw
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.SumLaw

/-- Entry (r, o) of the product array, as a function of the four operand arrays. -/
def tileAt (X Wt : (⟨2, ![4096, 4096]⟩ : Shape).Idx → EReal) (Sc Bi : (⟨2, ![1, 4096]⟩ : Shape).Idx → EReal)
    (r o : Fin 4096) : EReal :=
  ((∑ k : Fin 2048, X (ix2 r (kLo k)) * Wt (ix2 o (kLo k))) + ∑ k : Fin 2048, X (ix2 r (kHi k)) * Wt (ix2 o (kHi k)))
    * Sc (ix2 (0 : Fin 1) o) + Bi (ix2 (0 : Fin 1) o)

/-- The product array. -/
def product (X Wt : (⟨2, ![4096, 4096]⟩ : Shape).Idx → EReal) (Sc Bi : (⟨2, ![1, 4096]⟩ : Shape).Idx → EReal) :
    (⟨2, ![4096, 4096]⟩ : Shape).Idx → EReal := fun j => tileAt X Wt Sc Bi (j 0) (j 1)

variable (m : (ℓ : Loc nD τ sig) → Buf (Elt Ideal) ℓ) (ρ : Dev nD → PrngReg)

/-- The printed index maps over the grid: point t = (4 i + j) * 2 + k reads block (i, k) of the left operand, block
    (j, k) of the right operand, block (0, j) of scales and of bias, and owns output tile (i, j). -/
theorem index_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = 0 ∧ win0_3.index t (1 : Fin 2) = t.val / 2 % 4
    ∧ win0_4.index t (0 : Fin 2) = t.val / 8 ∧ win0_4.index t (1 : Fin 2) = t.val / 2 % 4 :=
  (by decide +kernel : ∀ t : Fin grid0.N, _)

/-- The left operand's block at point t, at (p, k): the array at (block row * 1024 + p, block column * 2048 + k). -/
theorem lhs_block (c : Dev nD) (t : Fin cfg0.N) (p : Fin 1024) (k : Fin 2048) (r κ : Fin 4096)
    (hr : r.val = win0_0.index t (0 : Fin 2) * 1024 + 1 * p.val) (hκ : κ.val = win0_0.index t (1 : Fin 2) * 2048 + 1 * k.val) :
    (iblk m c 0 t : Vec Ideal S1024x2048 .bf16) (ix2 p k) = V m c main_call0_v19 (ix2 r κ) := by
  unfold iblk
  rw [View.read_apply]
  show V m c main_call0_v19 _ = V m c main_call0_v19 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = κ.val; omega

/-- The right operand's block at point t, at (q, k). -/
theorem rhs_block (c : Dev nD) (t : Fin cfg0.N) (q : Fin 1024) (k : Fin 2048) (o κ : Fin 4096)
    (ho : o.val = win0_1.index t (0 : Fin 2) * 1024 + 1 * q.val) (hκ : κ.val = win0_1.index t (1 : Fin 2) * 2048 + 1 * k.val) :
    (iblk m c 1 t : Vec Ideal S1024x2048 .bf16) (ix2 q k) = V m c main_call0_v17 (ix2 o κ) := by
  unfold iblk
  rw [View.read_apply]
  show V m c main_call0_v17 _ = V m c main_call0_v17 _
  congr 1
  funext a
  apply Fin.ext
  match a with
  | ⟨0, _⟩ => show win0_1.index t (0 : Fin 2) * 1024 + 1 * q.val = o.val; omega
  | ⟨1, _⟩ => show win0_1.index t (1 : Fin 2) * 2048 + 1 * k.val = κ.val; omega

/-- The scales' block at point t, at (0, q). -/
theorem scales_block (c : Dev nD) (t : Fin cfg0.N) (q : Fin 1024) (o : Fin 4096)
    (h0 : win0_2.index t (0 : Fin 2) = 0) (ho : o.val = win0_2.index t (1 : Fin 2) * 1024 + 1 * q.val) :
    (iblk m c 2 t : Vec Ideal S1x1024 .f32) (ix2 (0 : Fin 1) q) = V m c main_call0_v20 (ix2 (0 : Fin 1) o) := by
  unfold iblk
  rw [View.read_apply]
  show V m c main_call0_v20 _ = V m c main_call0_v20 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = o.val; omega

/-- The bias' block at point t, at (0, q). -/
theorem bias_block (c : Dev nD) (t : Fin cfg0.N) (q : Fin 1024) (o : Fin 4096)
    (h0 : win0_3.index t (0 : Fin 2) = 0) (ho : o.val = win0_3.index t (1 : Fin 2) * 1024 + 1 * q.val) :
    (iblk m c 3 t : Vec Ideal S1x1024 .f32) (ix2 (0 : Fin 1) q) = V m c main_call0_v21 (ix2 (0 : Fin 1) o) := by
  unfold iblk
  rw [View.read_apply]
  show V m c main_call0_v21 _ = V m c main_call0_v21 _
  congr 1
  funext a
  apply Fin.ext
  match a with
  | ⟨0, _⟩ => show win0_3.index t (0 : Fin 2) * 1 + 1 * 0 = 0; omega
  | ⟨1, _⟩ => show win0_3.index t (1 : Fin 2) * 1024 + 1 * q.val = o.val; omega

/-- WHAT AN ODD POINT LEAVES IN THE OUTPUT TILE, at (p, q): entry (r, o) of the product, where (r, o) is the tile's
    position in the array. -/
theorem out_tile (c : Dev nD) (t : Fin cfg0.N) (h1 : t.val % 2 = 1) (p q : Fin 1024) (r o : Fin 4096)
    (hr : r.val = win0_4.index t (0 : Fin 2) * 1024 + 1 * p.val) (ho : o.val = win0_4.index t (1 : Fin 2) * 1024 + 1 * q.val) :
    ((outsAt0 m c t.val t.isLt).1 : Vec Ideal S1024x1024 .f32) (ix2 p q)
      = tileAt (V m c main_call0_v19) (V m c main_call0_v17) (V m c main_call0_v20) (V m c main_call0_v21) r o := by
  have hN : cfg0.N = 32 := N_0
  have htN : t.val < 32 := lt_of_lt_of_eq t.isLt hN
  have h0 : ¬t.val % 2 = 0 := by omega
  have hlt : t.val - 1 < cfg0.N := Nat.lt_of_le_of_lt (Nat.sub_le _ _) t.isLt
  have hA : outsAt0 m c (t.val - 1) hlt = _ :=
    outsAt0_A m c ⟨t.val - 1, hlt⟩ (by show (t.val - 1) % 2 = 0; omega) (by show ¬(t.val - 1) % 2 = 1; omega)
  rw [outsAt0_B m c t h0 h1]
  dsimp only
  rw [Pieces.out_second, hA]
  dsimp only
  rw [Pieces.acc_first, Payloads.tile_apply]
  obtain ⟨a0, a1, b0, b1, s0, s1, u0, u1, o0, o1⟩ := index_facts t
  obtain ⟨a0', a1', b0', b1', -, -, -, -, -, -⟩ := index_facts ⟨t.val - 1, hlt⟩
  dsimp only at a0' a1' b0' b1'
  have e1 : ∀ k : Fin 2048, (iblk m c 0 ⟨t.val - 1, hlt⟩ : Vec Ideal S1024x2048 .bf16) (ix2 p k)
      = V m c main_call0_v19 (ix2 r (kLo k)) := fun k =>
    lhs_block m c _ p k r (kLo k) (by rw [a0']; omega) (by rw [a1']; show k.val = _; omega)
  have e2 : ∀ k : Fin 2048, (iblk m c 1 ⟨t.val - 1, hlt⟩ : Vec Ideal S1024x2048 .bf16) (ix2 q k)
      = V m c main_call0_v17 (ix2 o (kLo k)) := fun k =>
    rhs_block m c _ q k o (kLo k) (by rw [b0']; omega) (by rw [b1']; show k.val = _; omega)
  have e3 : ∀ k : Fin 2048, (iblk m c 0 t : Vec Ideal S1024x2048 .bf16) (ix2 p k)
      = V m c main_call0_v19 (ix2 r (kHi k)) := fun k =>
    lhs_block m c t p k r (kHi k) (by rw [a0]; omega) (by rw [a1]; show 2048 + k.val = _; omega)
  have e4 : ∀ k : Fin 2048, (iblk m c 1 t : Vec Ideal S1024x2048 .bf16) (ix2 q k)
      = V m c main_call0_v17 (ix2 o (kHi k)) := fun k =>
    rhs_block m c t q k o (kHi k) (by rw [b0]; omega) (by rw [b1]; show 2048 + k.val = _; omega)
  have e5 : (iblk m c 2 t : Vec Ideal S1x1024 .f32) (ix2 (0 : Fin 1) q) = V m c main_call0_v20 (ix2 (0 : Fin 1) o) :=
    scales_block m c t q o s0 (by rw [s1]; omega)
  have e6 : (iblk m c 3 t : Vec Ideal S1x1024 .f32) (ix2 (0 : Fin 1) q) = V m c main_call0_v21 (ix2 (0 : Fin 1) o) :=
    bias_block m c t q o u0 (by rw [u1]; omega)
  unfold tileAt
  simp only [e1, e2, e3, e4, e5, e6]

/-- The product array of the operand arrays as the region finds them. -/
abbrev result (c : Dev nD) : (⟨2, ![4096, 4096]⟩ : Shape).Idx → EReal :=
  product (V m c main_call0_v19) (V m c main_call0_v17) (V m c main_call0_v20) (V m c main_call0_v21)

/-- WHAT AN ODD POINT WRITES BACK is its tile of the product array. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  show (cfg0.win 4).cut (grid0.coords t) ((dats m 0 c).after 4 t) = _
  rw [after0_4]
  funext j
  obtain ⟨p, q, rfl⟩ : ∃ (p q : Fin 1024), j = ix2 p q := ⟨j 0, j 1, eq_ix2 j⟩
  rw [View.read_apply]
  exact out_tile m c t h1 p q _ _ rfl rfl

/-- An index of the array is in point t's tile iff each coordinate is in the tile's range on its axis. -/
theorem mem_tile (t : Fin cfg0.N) (i : S4096x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_call0_v22).slice (win0_4.rect t)).set ↔ _
  rw [View.set_slice_whole, Rect.mem_set_unit]
  exact Iff.rfl

/-- Every entry (r, o) is in the tile of the odd point (4 (r / 1024) + o / 1024) * 2 + 1. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 32 := N_0
  have hlt : ((i 0).val / 1024 * 4 + (i 1).val / 1024) * 2 + 1 < cfg0.N := by rw [hN]; omega
  obtain ⟨-, -, -, -, -, -, -, -, o0, o1⟩ := index_facts ⟨((i 0).val / 1024 * 4 + (i 1).val / 1024) * 2 + 1, hlt⟩
  dsimp only at o0 o1
  refine ⟨⟨((i 0).val / 1024 * 4 + (i 1).val / 1024) * 2 + 1, hlt⟩, (flush0_4 _).mpr (by dsimp only; omega), ?_⟩
  rw [mem_tile]
  intro a
  match a with
  | ⟨0, _⟩ =>
    show win0_4.index _ (0 : Fin 2) * 1024 ≤ (i 0).val ∧ (i 0).val < win0_4.index _ (0 : Fin 2) * 1024 + 1024
    rw [o0]; omega
  | ⟨1, _⟩ =>
    show win0_4.index _ (1 : Fin 2) * 1024 ≤ (i 1).val ∧ (i 1).val < win0_4.index _ (1 : Fin 2) * 1024 + 1024
    rw [o1]; omega

/-- THE PRODUCT ARRAY after the region. -/
theorem final (c : Dev nD) : (dats m 0 c).arrAt 4 cfg0.N = result m c :=
  (dats m 0 c).arrAt_eq_of_cover 4 (result m c) (flushed_eq m c) covered

end Cert.KernelIdeal.Blocks

end
-- ==== Proof.Host.lean ====
/-
  The kernel program around its grid: what the region finds, what the last reshape returns, and the run.

  Before the region the host builds, from the arguments,
    the left operand: x [2, 2048, 4096] reshaped to [4096, 4096] (row b * 2048 + s) and narrowed to bf16;
    the right operand: the weight matrix [4096, 4096] — rows 0..2047 gathered from the 256-entry codebook, rows
      2048..4095 from the 16-entry codebook, each code's two-wide codeword laid along the row — narrowed to bf16;
    the scales and the bias as 1 x 4096 rows.
  Over the extended reals a change of float format is the identity. After the region the 4096 x 4096 product is
  reshaped back to [2, 2048, 4096].
-/
import proofs.«126006_j46188078301681_2_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

/-- The weight matrix the host reconstructs from the two code arrays and the two codebooks (negative codes wrapped
    once by the codebook's length, as array indexing does). -/
def weight (x1 x2 : (⟨S2048x2048, .i32⟩ : BufTy).Contents (Elt Ideal)) (x3 : (⟨S256x2, .f32⟩ : BufTy).Contents (Elt Ideal))
    (x4 : (⟨S16x2, .f32⟩ : BufTy).Contents (Elt Ideal)) : (⟨S4096x4096, .f32⟩ : BufTy).Contents (Elt Ideal) :=
  concatenate S4096x4096 0 [⟨S2048x4096, (shapeCast _ (Host.gather gather_S256x2_S2048x2048x1_S2048x2048x2_2_0_n_n_0_2_12 (x3) (broadcastInDim S2048x2048x1 ![0, 1] bcast_S2048x2048_S2048x2048x1_0_1 (select (cmpi .slt (x1) (broadcastInDim S2048x2048 ![] bcast_S_S2048x2048 (constantI S_ 32 0#32))) (addi (x1) (broadcastInDim S2048x2048 ![] bcast_S_S2048x2048 (constantI S_ 32 256#32))) (x1)))) shapeCasts_S2048x2048x2_S2048x4096)⟩, ⟨S2048x4096, (shapeCast _ (Host.gather gather_S16x2_S2048x2048x1_S2048x2048x2_2_0_n_n_0_2_12 (x4) (broadcastInDim S2048x2048x1 ![0, 1] bcast_S2048x2048_S2048x2048x1_0_1 (select (cmpi .slt (x2) (broadcastInDim S2048x2048 ![] bcast_S_S2048x2048 (constantI S_ 32 0#32))) (addi (x2) (broadcastInDim S2048x2048 ![] bcast_S_S2048x2048 (constantI S_ 32 16#32))) (x2)))) shapeCasts_S2048x2048x2_S2048x4096)⟩] concatenates_S2048x4096_S2048x4096_S4096x4096_d0

/-- The kernel program's result as a function of x, a weight matrix, the scales and the bias: x re-laid as
    [4096, 4096], the product array of `Blocks.product`, re-laid as [2, 2048, 4096]. -/
def valueW (x0 : (⟨S2x2048x4096, .f32⟩ : BufTy).Contents (Elt Ideal)) (W : (⟨S4096x4096, .f32⟩ : BufTy).Contents (Elt Ideal))
    (x5 x6 : (⟨S4096, .f32⟩ : BufTy).Contents (Elt Ideal)) : (⟨S2x2048x4096, .f32⟩ : BufTy).Contents (Elt Ideal) :=
  shapeCast S2x2048x4096
    (Blocks.product
      (truncf (F := Ideal) .bf16 (shapeCast S4096x4096 x0 shapeCasts_S2x2048x4096_S4096x4096) bitsLt_bf16_f32)
      (truncf (F := Ideal) .bf16 W bitsLt_bf16_f32)
      (shapeCast S1x4096 x5 shapeCasts_S4096_S1x4096)
      (shapeCast S1x4096 x6 shapeCasts_S4096_S1x4096))
    shapeCasts_S4096x4096_S2x2048x4096

/-- The kernel program's result as a function of its seven arguments. -/
def value (x0 : (⟨S2x2048x4096, .f32⟩ : BufTy).Contents (Elt Ideal)) (x1 x2 : (⟨S2048x2048, .i32⟩ : BufTy).Contents (Elt Ideal))
    (x3 : (⟨S256x2, .f32⟩ : BufTy).Contents (Elt Ideal)) (x4 : (⟨S16x2, .f32⟩ : BufTy).Contents (Elt Ideal))
    (x5 x6 : (⟨S4096, .f32⟩ : BufTy).Contents (Elt Ideal)) : (⟨S2x2048x4096, .f32⟩ : BufTy).Contents (Elt Ideal) :=
  valueW x0 (weight x1 x2 x3 x4) x5 x6

variable (m : (ℓ : Loc nD τ sig) → Buf (Elt Ideal) ℓ) (ρ : Dev nD → PrngReg)

/-- The left operand as the region finds it. -/
theorem lhs_array (c : Dev nD) : V m c main_call0_v19
    = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_call0_v19) = _
  after_results
  rfl

set_option maxHeartbeats 2000000 in
/-- The right operand as the region finds it. -/
theorem rhs_array (c : Dev nD) : V m c main_call0_v17
    = truncf (F := Ideal) .bf16 (weight (m ((c : Thread nD τ).loc main_arg1)) (m ((c : Thread nD τ).loc main_arg2)) (m ((c : Thread nD τ).loc main_arg3)) (m ((c : Thread nD τ).loc main_arg4))) bitsLt_bf16_f32 := by
  show StableHlo.after hostOps0 (fun b => m (c, b)) (Proc.devRef .tc main_call0_v17) = _
  after_results
  rfl

/-- The scales row as the region finds it. -/
theorem scales_array (c : Dev nD) : V m c main_call0_v20
    = shapeCast S1x4096 (m ((c : Thread nD τ).loc main_arg5)) shapeCasts_S4096_S1x4096 := by
  show StableHlo.after hostOps0 (fun b => m (c, b)) (Proc.devRef .tc main_call0_v20) = _
  after_results
  rfl

/-- The bias row as the region finds it. -/
theorem bias_array (c : Dev nD) : V m c main_call0_v21
    = shapeCast S1x4096 (m ((c : Thread nD τ).loc main_arg6)) shapeCasts_S4096_S1x4096 := by
  show StableHlo.after hostOps0 (fun b => m (c, b)) (Proc.devRef .tc main_call0_v21) = _
  after_results
  rfl

/-- The product array after the region, in terms of the arguments. -/
theorem product_eq (c : Dev nD) : Blocks.result m c
    = Blocks.product
      (truncf (F := Ideal) .bf16 (shapeCast S4096x4096 (m ((c : Thread nD τ).loc main_arg0)) shapeCasts_S2x2048x4096_S4096x4096) bitsLt_bf16_f32)
      (truncf (F := Ideal) .bf16 (weight (m ((c : Thread nD τ).loc main_arg1)) (m ((c : Thread nD τ).loc main_arg2)) (m ((c : Thread nD τ).loc main_arg3)) (m ((c : Thread nD τ).loc main_arg4))) bitsLt_bf16_f32)
      (shapeCast S1x4096 (m ((c : Thread nD τ).loc main_arg5)) shapeCasts_S4096_S1x4096)
      (shapeCast S1x4096 (m ((c : Thread nD τ).loc main_arg6)) shapeCasts_S4096_S1x4096) := by
  unfold Blocks.result
  rw [lhs_array, rhs_array, scales_array, bias_array]

/-- The reshape after the region returns the product array re-laid as [2, 2048, 4096]. -/
theorem tail_result (c : Dev nD) :
    Pipeline.afterTail₀ cfgs (dats m) 0 (V0 m) [hostOps1] c main_v0
      = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v0) = _
  after_results
  unfold value valueW
  rw [← product_eq m c]
  have key := congrArg (fun a => shapeCast S2x2048x4096 a shapeCasts_S4096x4096_S2x2048x4096)
    ((Pipeline.withArrays_arr spec0 launch0.win.arr_inj c (V0 m c) (fun w => (dats m 0 c).arrAt w cfg0.N) 4).trans
      (Blocks.final m c))
  exact key

/-- THE RUN of the kernel program over the extended reals: it terminates with the result at `value` of the
    arguments and the arguments unchanged. -/
theorem run : θ_run defs (onTc (τ := τ) (main (F := Ideal))) ⟨m, fun _ => 0, ρ⟩ fun r => ∀ c : Dev nD,
      r.2.mem ((c : Thread nD τ).loc main_v0)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨
      ((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Host

end
-- ==== Proof.Bridge.lean ====
/-
  The two programs compute one function.

  With x [2, 2048, 4096], W the [4096, 4096] weight matrix, s the scales and t the bias, at (b, r, o):
    the kernel:     (Σ_{κ < 2048} x (b, r, κ) * W (o, κ) + Σ_{2048 ≤ κ < 4096} x (b, r, κ) * W (o, κ)) * s (o) + t (o)
    the reference:  Σ_{κ < 4096} x (b, r, κ) * (W (o, κ) * s (o)) + t (o)
  Both programs build W from the arguments by the same operations. The two contractions are equal when x, W
  and s are arrays of real numbers (the sum law); x and s are real by the precondition, and W is real because a
  gather, a reshape and a concatenation only move entries of the two codebooks, which are real by the precondition.
-/
import proofs.«126006_j46188078301681_2_alg».proof.Proof.Host
import proofs.«126006_j46188078301681_2_alg».proof.Proof.Gen.ReferenceIdeal.Read

set_option maxRecDepth 16384

noncomputable section

open Idealize.ShloMosaic Idealize.ShloMosaic.ValueIdx
open scoped BigOperators

namespace Cert.Bridge

open Cert.Math Cert.SumLaw

/-- Both programs reconstruct the weight matrix by the same operations of the same arguments. -/
theorem weight_eq (x1 x2 : (⟨Cert.KernelIdeal.S2048x2048, .i32⟩ : BufTy).Contents (Elt Ideal))
    (x3 : (⟨Cert.KernelIdeal.S256x2, .f32⟩ : BufTy).Contents (Elt Ideal)) (x4 : (⟨Cert.KernelIdeal.S16x2, .f32⟩ : BufTy).Contents (Elt Ideal)) :
    Cert.KernelIdeal.Host.weight x1 x2 x3 x4 = Cert.ReferenceIdeal.Read.val_main_v16 (F := Ideal) x1 x2 x3 x4 := rfl

/-- The weight matrix of real codebooks is real: its entries are codebook entries. -/
theorem weight_real (x1 x2 : (⟨Cert.KernelIdeal.S2048x2048, .i32⟩ : BufTy).Contents (Elt Ideal))
    (x3 : (⟨Cert.KernelIdeal.S256x2, .f32⟩ : BufTy).Contents (Elt Ideal)) (x4 : (⟨Cert.KernelIdeal.S16x2, .f32⟩ : BufTy).Contents (Elt Ideal))
    (h3 : AllReal (x3 : Cert.KernelIdeal.S256x2.Idx → EReal)) (h4 : AllReal (x4 : Cert.KernelIdeal.S16x2.Idx → EReal)) :
    AllReal (Cert.KernelIdeal.Host.weight x1 x2 x3 x4 : Cert.KernelIdeal.S4096x4096.Idx → EReal) := by
  unfold Cert.KernelIdeal.Host.weight
  refine allReal_concatenate _ _ _ fun p hp => ?_
  simp only [List.mem_cons, List.mem_nil_iff, or_false] at hp
  rcases hp with rfl | rfl
  · exact allReal_shapeCast _ (allReal_gather _ _ h3)
  · exact allReal_shapeCast _ (allReal_gather _ _ h4)

/-- THE KERNEL'S VALUE at (b, r, o): the two half contractions, scaled, plus the bias. -/
theorem valueW_apply (x0 : (⟨Cert.KernelIdeal.S2x2048x4096, .f32⟩ : BufTy).Contents (Elt Ideal))
    (W : (⟨Cert.KernelIdeal.S4096x4096, .f32⟩ : BufTy).Contents (Elt Ideal)) (x5 x6 : (⟨Cert.KernelIdeal.S4096, .f32⟩ : BufTy).Contents (Elt Ideal))
    (b : Fin 2) (r : Fin 2048) (o : Fin 4096) :
    Cert.KernelIdeal.Host.valueW x0 W x5 x6 (ix3 b r o)
      = ((∑ k : Fin 2048, x0 (ix3 b r (kLo k)) * W (ix2 o (kLo k))) + ∑ k : Fin 2048, x0 (ix3 b r (kHi k)) * W (ix2 o (kHi k)))
          * x5 (ix1 o) + x6 (ix1 o) := by
  have hrow : b.val * 2048 + r.val < 4096 := by have := b.isLt; have := r.isLt; omega
  unfold Cert.KernelIdeal.Host.valueW
  rw [shapeCast_apply _ Cert.KernelIdeal.Facts₀.shapeCasts_S4096x4096_S2x2048x4096 (ix3 b r o)
    (ix2 (⟨b.val * 2048 + r.val, hrow⟩ : Fin 4096) o) (by
      rw [Shape.rowMajor_val_two, Shape.rowMajor_val_three]; rfl)]
  have eX : ∀ κ : Fin 4096,
      (truncf (F := Ideal) .bf16 (shapeCast Cert.KernelIdeal.S4096x4096 x0 Cert.KernelIdeal.Facts₀.shapeCasts_S2x2048x4096_S4096x4096) Cert.KernelIdeal.Facts₀.bitsLt_bf16_f32
        : FVec Ideal Cert.KernelIdeal.S4096x4096 .bf16) (ix2 (⟨b.val * 2048 + r.val, hrow⟩ : Fin 4096) κ) = x0 (ix3 b r κ) := fun κ =>
    shapeCast_apply x0 _ (ix2 (⟨b.val * 2048 + r.val, hrow⟩ : Fin 4096) κ) (ix3 b r κ) (by
      rw [Shape.rowMajor_val_three, Shape.rowMajor_val_two]; rfl)
  have eW : ∀ κ : Fin 4096,
      (truncf (F := Ideal) .bf16 W Cert.KernelIdeal.Facts₀.bitsLt_bf16_f32 : FVec Ideal Cert.KernelIdeal.S4096x4096 .bf16) (ix2 o κ) = W (ix2 o κ) := fun κ => rfl
  have e5 : shapeCast Cert.KernelIdeal.S1x4096 x5 Cert.KernelIdeal.Facts₀.shapeCasts_S4096_S1x4096 (ix2 (0 : Fin 1) o) = x5 (ix1 o) :=
    shapeCast_apply x5 _ (ix2 (0 : Fin 1) o) (ix1 o) (by
      rw [Shape.rowMajor_val_one, Shape.rowMajor_val_two]; show o.val = 0 * 4096 + o.val; omega)
  have e6 : shapeCast Cert.KernelIdeal.S1x4096 x6 Cert.KernelIdeal.Facts₀.shapeCasts_S4096_S1x4096 (ix2 (0 : Fin 1) o) = x6 (ix1 o) :=
    shapeCast_apply x6 _ (ix2 (0 : Fin 1) o) (ix1 o) (by
      rw [Shape.rowMajor_val_one, Shape.rowMajor_val_two]; show o.val = 0 * 4096 + o.val; omega)
  show Cert.KernelIdeal.Blocks.tileAt _ _ _ _ (⟨b.val * 2048 + r.val, hrow⟩ : Fin 4096) o = _
  unfold Cert.KernelIdeal.Blocks.tileAt
  simp only [eX, eW, e5, e6]

/-- THE REFERENCE'S VALUE at (b, r, o): one contraction against the scaled weight, plus the bias. -/
theorem reference_apply (x0 : (⟨Cert.ReferenceIdeal.S2x2048x4096, .f32⟩ : BufTy).Contents (Elt Ideal))
    (x1 x2 : (⟨Cert.ReferenceIdeal.S2048x2048, .i32⟩ : BufTy).Contents (Elt Ideal))
    (x3 : (⟨Cert.ReferenceIdeal.S256x2, .f32⟩ : BufTy).Contents (Elt Ideal)) (x4 : (⟨Cert.ReferenceIdeal.S16x2, .f32⟩ : BufTy).Contents (Elt Ideal))
    (x5 x6 : (⟨Cert.ReferenceIdeal.S4096, .f32⟩ : BufTy).Contents (Elt Ideal)) (b : Fin 2) (r : Fin 2048) (o : Fin 4096) :
    Cert.ReferenceIdeal.Read.val_main_v23 (F := Ideal) x0 x1 x2 x3 x4 x5 x6 (ix3 b r o)
      = (∑ κ : Fin 4096, x0 (ix3 b r κ) * (Cert.ReferenceIdeal.Read.val_main_v16 (F := Ideal) x1 x2 x3 x4 (ix2 o κ) * x5 (ix1 o))) + x6 (ix1 o) := by
  have hl : ∀ κ : Fin 4096, Cert.ReferenceIdeal.Read.lidx_main_v20 (ix3 b r o) κ = ix3 b r κ := fun κ =>
    funext fun a => Fin.ext (by match a with | ⟨0, _⟩ => rfl | ⟨1, _⟩ => rfl | ⟨2, _⟩ => rfl)
  have hr : ∀ κ : Fin 4096, Cert.ReferenceIdeal.Read.ridx_main_v20 (ix3 b r o) κ = ix2 o κ := fun κ =>
    funext fun a => Fin.ext (by match a with | ⟨0, _⟩ => rfl | ⟨1, _⟩ => rfl)
  have h5 : ∀ κ : Fin 4096, Cert.ReferenceIdeal.Read.idx_main_v17 (Cert.ReferenceIdeal.Read.idx_main_v18 (ix2 o κ)) = ix1 o := fun κ =>
    funext fun a => Fin.ext (by match a with | ⟨0, _⟩ => rfl)
  have h6 : Cert.ReferenceIdeal.Read.idx_main_v21 (Cert.ReferenceIdeal.Read.idx_main_v22 (ix3 b r o)) = ix1 o :=
    funext fun a => Fin.ext (by match a with | ⟨0, _⟩ => rfl)
  rw [Cert.ReferenceIdeal.Read.val_main_v23_apply, Cert.ReferenceIdeal.Read.val_main_v20_apply, Cert.ReferenceIdeal.Read.val_main_v22_apply, Cert.ReferenceIdeal.Read.val_main_v21_apply, h6]
  refine congrArg (· + x6 (ix1 o)) (Finset.sum_congr rfl fun κ _ => ?_)
  rw [Cert.ReferenceIdeal.Read.val_main_v19_apply, Cert.ReferenceIdeal.Read.val_main_v18_apply, Cert.ReferenceIdeal.Read.val_main_v17_apply, hl, hr, h5]
  rfl

/-- THE BRIDGE: on arguments whose float entries are real numbers the kernel program's value is the reference's. -/
theorem value_eq (x0 : (⟨Cert.KernelIdeal.S2x2048x4096, .f32⟩ : BufTy).Contents (Elt Ideal))
    (x1 x2 : (⟨Cert.KernelIdeal.S2048x2048, .i32⟩ : BufTy).Contents (Elt Ideal))
    (x3 : (⟨Cert.KernelIdeal.S256x2, .f32⟩ : BufTy).Contents (Elt Ideal)) (x4 : (⟨Cert.KernelIdeal.S16x2, .f32⟩ : BufTy).Contents (Elt Ideal))
    (x5 x6 : (⟨Cert.KernelIdeal.S4096, .f32⟩ : BufTy).Contents (Elt Ideal))
    (h0 : AllReal (x0 : Cert.KernelIdeal.S2x2048x4096.Idx → EReal)) (h3 : AllReal (x3 : Cert.KernelIdeal.S256x2.Idx → EReal))
    (h4 : AllReal (x4 : Cert.KernelIdeal.S16x2.Idx → EReal)) (h5 : AllReal (x5 : Cert.KernelIdeal.S4096.Idx → EReal)) :
    Cert.KernelIdeal.Host.value x0 x1 x2 x3 x4 x5 x6 = Cert.ReferenceIdeal.Read.val_main_v23 (F := Ideal) x0 x1 x2 x3 x4 x5 x6 := by
  funext i
  obtain ⟨b, r, o, rfl⟩ : ∃ (b : Fin 2) (r : Fin 2048) (o : Fin 4096), i = ix3 b r o := ⟨i 0, i 1, i 2, eq_ix3 i⟩
  have hW := weight_real x1 x2 x3 x4 h3 h4
  rw [reference_apply, ← weight_eq]
  show Cert.KernelIdeal.Host.valueW x0 (Cert.KernelIdeal.Host.weight x1 x2 x3 x4) x5 x6 (ix3 b r o) = _
  rw [valueW_apply]
  exact congrArg (· + x6 (ix1 o))
    (scaled_halves_4096 (fun κ => x0 (ix3 b r κ)) (fun κ => Cert.KernelIdeal.Host.weight x1 x2 x3 x4 (ix2 o κ)) (x5 (ix1 o))
      (fun κ => h0 _) (fun κ => hW _) (h5 _))

end Cert.Bridge

end
-- ==== Proof.lean ====
/-
  A quantized linear layer: y = x · Wᵀ · diag(scales) + bias, with the 4096 x 4096 weight W reconstructed from two
  vector-quantization codebooks (rows 0..2047 from 256 two-wide codewords, rows 2048..4095 from 16).

  The kernel program reconstructs W on the host, and computes, tile by tile and in two contraction steps of 2048,
      y (b, r, o) = (Σ_{κ < 2048} x (b, r, κ) W (o, κ) + Σ_{2048 ≤ κ < 4096} x (b, r, κ) W (o, κ)) · scales (o) + bias (o).
  The reference scales the weight first:
      y (b, r, o) = Σ_{κ < 4096} x (b, r, κ) (W (o, κ) · scales (o)) + bias (o).
  Over the extended reals the two are equal when x, W and the scales are arrays of real numbers; the precondition
  makes x, the codebooks and the scales real, and W only holds codebook entries. Changes of float format are the
  identity over the extended reals, the order and grouping of a sum do not matter, and 0 + a = a.

  The three programs' runs (termination, no fault, arguments unchanged) are the generated frames of the two kernel
  programs and the generated run of the reference; the idealization rewrote nothing.
-/
import proofs.«126006_j46188078301681_2_alg».proof.Defs
import proofs.«126006_j46188078301681_2_alg».proof.Proof.Gen.Kernel
import proofs.«126006_j46188078301681_2_alg».proof.Proof.Gen.Kernel.Skeleton
import proofs.«126006_j46188078301681_2_alg».proof.Proof.Gen.Kernel.Launch
import proofs.«126006_j46188078301681_2_alg».proof.Proof.Gen.Kernel.Points
import proofs.«126006_j46188078301681_2_alg».proof.Proof.Gen.Kernel.Frame
import proofs.«126006_j46188078301681_2_alg».proof.Proof.Gen.KernelIdeal
import proofs.«126006_j46188078301681_2_alg».proof.Proof.Gen.KernelIdeal.Skeleton
import proofs.«126006_j46188078301681_2_alg».proof.Proof.Gen.KernelIdeal.Launch
import proofs.«126006_j46188078301681_2_alg».proof.Proof.Gen.KernelIdeal.Points
import proofs.«126006_j46188078301681_2_alg».proof.Proof.Gen.KernelIdeal.Frame
import proofs.«126006_j46188078301681_2_alg».proof.Proof.Gen.ReferenceIdeal
import proofs.«126006_j46188078301681_2_alg».proof.Proof.Gen.ReferenceIdeal.Run
import proofs.«126006_j46188078301681_2_alg».proof.Proof.Gen.ReferenceIdeal.Read
import proofs.«126006_j46188078301681_2_alg».proof.Proof.Gen.Pre_finite_inputs
import proofs.«126006_j46188078301681_2_alg».proof.Proof.Finite
import proofs.«126006_j46188078301681_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both idealized programs end with the
    same result array: the kernel program's value of the arguments. -/
theorem algebraic : Cert.algebraic_KernelIdeal_ReferenceIdeal := by
  intro m ρ m' ρ' hpre hagree
  refine ⟨fun c => Cert.KernelIdeal.Host.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r3, r4, r5, -⟩ := Cert.Finite.inputs_real _ _ _ _ _ _ _ (hpre c)
  rw [a0, a1, a2, a3, a4, a5, a6, Cert.ReferenceIdeal.Read.val_main_v23_eq]
  exact (Cert.Bridge.value_eq _ _ _ _ _ _ _ r0 r3 r4 r5).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
